-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S100000x128 .f32) (main_arg1 : IVec S600000 32) (main_arg2 : IVec S600000 32) (main_arg3 : FVec F S600000 .f32) (main_arg4 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S100000x128 : Shape := ⟨2, ![100000, 128]⟩
abbrev S600000 : Shape := ⟨1, ![600000]⟩
abbrev S256x128 : Shape := ⟨2, ![256, 128]⟩
abbrev S600000x1 : Shape := ⟨2, ![600000, 1]⟩
abbrev S_ : Shape := ⟨0, ![]⟩
abbrev S600000x128 : Shape := ⟨2, ![600000, 128]⟩
abbrev S128x128 : Shape := ⟨2, ![128, 128]⟩
abbrev S5000x128 : Shape := ⟨2, ![5000, 128]⟩

abbrev nBuf : Space → Nat
  | .hbm => 24
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S256x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S128x128, .f32⟩
  | .hbm, ⟨22, _⟩ => ⟨S128x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S256x128 : Shape := ⟨2, ![256, 128]⟩
abbrev S600000x1 : Shape := ⟨2, ![600000, 1]⟩
abbrev S_ : Shape := ⟨0, ![]⟩
abbrev S600000x128 : Shape := ⟨2, ![600000, 128]⟩
abbrev S128x128 : Shape := ⟨2, ![128, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S256x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The layer this certificate is about, as one function of whole arrays.

  For node features `x` (100000 rows of 128 numbers), an aggregate `h` of the same shape, and two square weight
  matrices `w₁`, `w₂` (128 × 128), the layer's output at row `p`, column `q` is

      max ( ∑ₖ h[p,k] · w₁[k,q]  +  ∑ₖ x[p,k] · w₂[k,q] ,  0 )

  over the extended reals: the two matrix products added, then clamped below at zero. Row `p` of the result depends on row
  `p` of `h` and of `x` only, so any tiling of the rows computes the same array. Nothing here needs the inputs finite: the
  value is built from sums, products and one maximum, in one fixed arrangement on both sides.
-/
import Idealize.ShloMosaic.PureOps.Ideal
import Idealize.ShloMosaic.Lib.ValueIdx

noncomputable section

open scoped BigOperators

namespace Cert.Layer

open Idealize.ShloMosaic Idealize.ShloMosaic.ValueIdx

/-- Node-by-feature arrays: 100000 rows of 128. -/
abbrev Nodes : Shape := ⟨2, ![100000, 128]⟩
/-- A square weight matrix, 128 × 128. -/
abbrev Square : Shape := ⟨2, ![128, 128]⟩

/-- The float word `+0.0` read as an extended real. -/
abbrev zero : EReal := Ideal.ofBits .f32 0x00000000#32

/-- The layer at row `p`, column `q`. -/
def at_ (h x : Nodes.Idx → EReal) (w₁ w₂ : Square.Idx → EReal) (p : Fin 100000) (q : Fin 128) : EReal :=
  max ((∑ k : Fin 128, h (ix2 p k) * w₁ (ix2 k q)) + (∑ k : Fin 128, x (ix2 p k) * w₂ (ix2 k q))) zero

/-- The layer as a whole array. -/
def out (h x : Nodes.Idx → EReal) (w₁ w₂ : Square.Idx → EReal) : Nodes.Idx → EReal :=
  fun i => at_ h x w₁ w₂ (i 0) (i 1)

theorem out_apply (h x : Nodes.Idx → EReal) (w₁ w₂ : Square.Idx → EReal) (i : Nodes.Idx) :
    out h x w₁ w₂ i = at_ h x w₁ w₂ (i 0) (i 1) := rfl

end Cert.Layer

end
-- ==== Proof.Tile.lean ====
/-
  One tile of the kernel: what the body stores, read at an index.

  At each grid point the body loads a tile of 5000 rows of the aggregate `h` and of the node features `x` and the two whole
  128 × 128 weight matrices, narrows all four to bf16 (the identity on extended reals), multiplies `h`'s tile by `w₁` and
  `x`'s tile by `w₂` on the matrix unit into zero accumulators, adds the two products and stores the maximum with `+0.0`.
  A matrix product into a zero accumulator, at row `p` and column `q`, is the sum over the one contracted coordinate `k` of
  the left operand at `(p, k)` times the right operand at `(k, q)`. So if row `y 0` of the loaded tiles is row `p` of the
  whole arrays, the stored value at `y` is the layer at `(p, y 1)`.
-/
import proofs.«157850_j67010079752193_1_alg».proof.Proof.Gen.KernelIdeal.Skeleton
import proofs.«157850_j67010079752193_1_alg».proof.Proof.Layer
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The matrix unit's dimension numbers for a 5000 × 128 tile times a 128 × 128 matrix. -/
abbrev mm : DotDims S5000x128 S128x128 S5000x128 := dot_S5000x128_S128x128_S5000x128_1_0_0_1_n_n

/-- The left operand's row coordinate is the output's row. -/
theorem lhs_row (j : S5000x128.Idx) (c : mm.contr.Idx) : (mm.lhsIdx j c 0).val = (j 0).val := by
  unfold DotDims.lhsIdx
  rw [dif_neg (show ¬(0 : Fin S5000x128.rank) ∈ mm.lhsBatch by decide), dif_pos (show (0 : Fin S5000x128.rank) ∈ mm.lhsNonContracting by decide)]
  rfl
/-- The left operand's column coordinate is the contracted coordinate. -/
theorem lhs_col (j : S5000x128.Idx) (c : mm.contr.Idx) : (mm.lhsIdx j c 1).val = (c ⟨0, by decide⟩).val :=
  mm.lhsIdx_val_of_single rfl j c
/-- The right operand's row coordinate is the contracted coordinate. -/
theorem rhs_row (j : S5000x128.Idx) (c : mm.contr.Idx) : (mm.rhsIdx j c 0).val = (c ⟨0, by decide⟩).val :=
  mm.rhsIdx_val_of_single rfl j c
/-- The right operand's column coordinate is the output's column. -/
theorem rhs_col (j : S5000x128.Idx) (c : mm.contr.Idx) : (mm.rhsIdx j c 1).val = (j 1).val := by
  unfold DotDims.rhsIdx
  rw [dif_neg (show ¬(1 : Fin S128x128.rank) ∈ mm.rhsBatch by decide), dif_pos (show (1 : Fin S128x128.rank) ∈ mm.rhsNonContracting by decide)]
  rfl

/-- The left operand's index at output `(p, q)` and contraction coordinate `k` is `(p, k)`. -/
theorem lhs_idx (p : Fin 5000) (q k : Fin 128) :
    mm.lhsIdx (ix2 p q) ((contrEquiv1 mm 128 rfl rfl).symm k) = ix2 p k := by
  have hk := contrEquiv1_symm_val mm 128 rfl rfl k
  funext a
  apply Fin.ext
  match a with
  | ⟨0, _⟩ => exact lhs_row _ _
  | ⟨1, _⟩ => exact (lhs_col _ _).trans hk

/-- The right operand's index at output `(p, q)` and contraction coordinate `k` is `(k, q)`. -/
theorem rhs_idx (p : Fin 5000) (q k : Fin 128) :
    mm.rhsIdx (ix2 p q) ((contrEquiv1 mm 128 rfl rfl).symm k) = ix2 k q := by
  have hk := contrEquiv1_symm_val mm 128 rfl rfl k
  funext a
  apply Fin.ext
  match a with
  | ⟨0, _⟩ => exact (rhs_row _ _).trans hk
  | ⟨1, _⟩ => exact rhs_col _ _

/-- A tile times a matrix into the zero accumulator, at `(p, q)`: the sum over `k` of `a (p, k) · b (k, q)`. -/
theorem product_apply {φ₁ φ₂ : FTy} (a : FVec Ideal S5000x128 φ₁) (b : FVec Ideal S128x128 φ₂) (p : Fin 5000) (q : Fin 128) :
    matmul mm none a b (constant S5000x128 .f32 0x00000000#32) (ix2 p q) = ∑ k : Fin 128, a (ix2 p k) * b (ix2 k q) := by
  simp only [matmul]
  rw [Ideal.matmul_constant_zero_apply, ← Equiv.sum_comp (contrEquiv1 mm 128 rfl rfl).symm]
  refine Finset.sum_congr rfl fun k _ => ?_
  rw [lhs_idx, rhs_idx]

/-- The stored tile at `(p, q)`: the two products' sums added, clamped below at zero. -/
theorem stored_apply (h x : Vec Ideal S5000x128 .f32) (w₁ w₂ : Vec Ideal S128x128 .f32) (p : Fin 5000) (q : Fin 128) :
    k0_pay1 h x w₁ w₂ (ix2 p q)
      = max ((∑ k : Fin 128, h (ix2 p k) * w₁ (ix2 k q)) + (∑ k : Fin 128, x (ix2 p k) * w₂ (ix2 k q))) Cert.Layer.zero := by
  unfold k0_pay1
  simp only [shapeCast_self]
  refine (maximumf_apply _ _ _).trans ?_
  refine congrArg₂ max ?_ rfl
  refine (addf_apply _ _ _).trans ?_
  refine congrArg₂ (· + ·) ?_ ?_
  · exact product_apply _ _ p q
  · exact product_apply _ _ p q

/-- The stored tile at `y` is the layer at the row of the whole arrays that row `y 0` of the tiles is: `hh`, `hx` say
    the tiles' row `y 0` is row `p` of `H` and of `X`, `hw₁`, `hw₂` that the loaded matrices are `W₁`, `W₂`. -/
theorem stored_is_layer (h x : Vec Ideal S5000x128 .f32) (w₁ w₂ : Vec Ideal S128x128 .f32)
    (H X : Cert.Layer.Nodes.Idx → EReal) (W₁ W₂ : Cert.Layer.Square.Idx → EReal)
    (y : S5000x128.Idx) (p : Fin 100000)
    (hh : ∀ k : Fin 128, h (ix2 (y 0) k) = H (ix2 p k)) (hx : ∀ k : Fin 128, x (ix2 (y 0) k) = X (ix2 p k))
    (hw₁ : ∀ k q : Fin 128, w₁ (ix2 k q) = W₁ (ix2 k q)) (hw₂ : ∀ k q : Fin 128, w₂ (ix2 k q) = W₂ (ix2 k q)) :
    k0_pay1 h x w₁ w₂ y = Cert.Layer.at_ H X W₁ W₂ p (y 1) := by
  obtain ⟨a, b, rfl⟩ : ∃ (a : Fin 5000) (b : Fin 128), y = ix2 a b := ⟨y 0, y 1, eq_ix2 y⟩
  rw [stored_apply]
  unfold Cert.Layer.at_
  refine congrArg₂ max (congrArg₂ (· + ·) ?_ ?_) rfl
  · exact Finset.sum_congr rfl fun k _ => by rw [hh k, hw₁ k b]
  · exact Finset.sum_congr rfl fun k _ => by rw [hx k, hw₂ k b]

end Cert.KernelIdeal.Tile

end
-- ==== Proof.Rows.lean ====
/-
  From tiles to the whole array.

  The grid has 20 points. At point `t` the pipeline hands the body rows `5000·t … 5000·t + 4999` of the aggregate `h` and of
  the node features `x` (the two row-tiled inputs move with the output), and the two whole 128 × 128 weight matrices (their
  block index is `(0, 0)` at every point); the body's stored tile is written back to the same rows of the result. A tile's
  row `r` is therefore row `5000·t + r` of the whole arrays, and by `Tile.stored_is_layer` what point `t` writes back is
  the layer, read through that block. Row `p` lies in the block of point `p / 5000`, so the twenty blocks cover the result,
  which ends holding the layer of the arrays the region found.
-/
import proofs.«157850_j67010079752193_1_alg».proof.Proof.Gen.KernelIdeal.Value
import proofs.«157850_j67010079752193_1_alg».proof.Proof.Tile

noncomputable section

namespace Cert.KernelIdeal.Rows

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps, decided over the twenty points: the two row-tiled inputs sit at the output's row block and
    column block 0, the two weight matrices at block (0, 0), and the output's row block is below 20. -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every row block of the result is some point's. -/
theorem index_onto : ∀ b : Fin 20, ∃ t : Fin cfg0.N, win0_4.index t = ![b.val, 0] :=
  (by decide +kernel : ∀ b : Fin 20, ∃ t : Fin grid0.N, win0_4.index t = ![b.val, 0])

/-- The layer of the arrays as the region finds them: the aggregate, the node features, the two weight halves. -/
abbrev whole (c : Dev nD) : S100000x128.Idx → EReal :=
  Cert.Layer.out (V m c main_v12) (V m c main_arg0) (V m c main_v13) (V m c main_v14)

/-- What point `t` writes back is block `t` of the layer. -/
theorem flushed_eq (c : Dev nD) (t : Fin cfg0.N) :
    (dats m 0 c).flushed 4 t = ((cfg0.win 4).blk t).view.read (Elt Ideal) (whole m c) := by
  rw [flushed4]
  unfold out0_4
  rw [View.canon_unit_zero offsets_zero]
  simp only [View.ld_unit_zero (S := S5000x128) offsets_zero, View.ld_unit_zero (S := S128x128) offsets_zero]
  obtain ⟨e00, e01, e10, e11, e20, e21, e30, e31, e41, e40⟩ := index_facts t
  funext j
  show k0_pay1 (iblk m c 0 t) (iblk m c 1 t) (iblk m c 2 t) (iblk m c 3 t) j = whole m c (((cfg0.win 4).blk t).view.emb j)
  have hj0 : (j 0).val < 5000 := (j 0).isLt
  have hj1 : (j 1).val < 128 := (j 1).isLt
  -- row `j 0` of the aggregate's tile is row `5000·t + j 0` of the aggregate
  have hh : ∀ k : Fin 128, (iblk m c 0 t : Vec Ideal S5000x128 .f32) (ix2 (j 0) k)
      = (V m c main_v12 : S100000x128.Idx → EReal) (ix2 ((((cfg0.win 4).blk t).view.emb j) 0) k) := fun k => by
    show V m c main_v12 (((cfg0.win 0).blk t).view.emb (ix2 (j 0) k)) = V m c main_v12 _
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  -- and the same of the node features' tile
  have hx : ∀ k : Fin 128, (iblk m c 1 t : Vec Ideal S5000x128 .f32) (ix2 (j 0) k)
      = (V m c main_arg0 : S100000x128.Idx → EReal) (ix2 ((((cfg0.win 4).blk t).view.emb j) 0) k) := fun k => by
    show V m c main_arg0 (((cfg0.win 1).blk t).view.emb (ix2 (j 0) k)) = V m c main_arg0 _
    refine congrArg _ (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  -- the weight blocks are the whole matrices
  have hw₁ : ∀ k q : Fin 128, (iblk m c 2 t : Vec Ideal S128x128 .f32) (ix2 k q) = (V m c main_v13 : S128x128.Idx → EReal) (ix2 k q) := fun k q => by
    show V m c main_v13 (((cfg0.win 2).blk t).view.emb (ix2 k q)) = V m c main_v13 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have hw₂ : ∀ k q : Fin 128, (iblk m c 3 t : Vec Ideal S128x128 .f32) (ix2 k q) = (V m c main_v14 : S128x128.Idx → EReal) (ix2 k q) := fun k q => by
    show V m c main_v14 (((cfg0.win 3).blk t).view.emb (ix2 k q)) = V m c main_v14 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  -- the output block keeps the column
  have hq : (((cfg0.win 4).blk t).view.emb j) 1 = j 1 :=
    Fin.ext (by show win0_4.index t (1 : Fin 2) * 128 + 1 * (j 1).val = (j 1).val; omega)
  refine (Cert.KernelIdeal.Tile.stored_is_layer (iblk m c 0 t) (iblk m c 1 t) (iblk m c 2 t) (iblk m c 3 t)
    (V m c main_v12) (V m c main_arg0) (V m c main_v13) (V m c main_v14) j ((((cfg0.win 4).blk t).view.emb j) 0) hh hx hw₁ hw₂).trans ?_
  exact congrArg (Cert.Layer.at_ (V m c main_v12) (V m c main_arg0) (V m c main_v13) (V m c main_v14) ((((cfg0.win 4).blk t).view.emb j) 0)) hq.symm

/-- An index of the result is in point `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- Row `p` of the result is in the block of the point whose row block is `p / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := index_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The result array after the run is the layer of the arrays the region found. -/
theorem final (c : Dev nD) : (dats m 0 c).arrAt 4 cfg0.N = whole m c :=
  (dats m 0 c).arrAt_eq_of_cover 4 (whole m c) (fun t _ => flushed_eq m c t) covered

end Cert.KernelIdeal.Rows

end
-- ==== Proof.Found.lean ====
/-
  The arrays the kernel's region finds, as functions of the arguments.

  Before the region both programs run the same host operations: the column indices are wrapped into range, the rows of `x`
  they name are gathered and scaled by the edge values, and the scaled rows are summed into the rows the row indices name
  — the aggregate `h`; and the weight array is sliced into its upper and lower 128 rows. The kernel program's region finds
  the aggregate, `x` itself and the two slices; each is, term for term, the value the reference program computes at the
  same place, so the two programs' layers are taken of the same four arrays. The aggregate is never opened: it is one
  term, the same on both sides.
-/
import proofs.«157850_j67010079752193_1_alg».proof.Proof.Gen.KernelIdeal.Frame
import proofs.«157850_j67010079752193_1_alg».proof.Proof.Gen.ReferenceIdeal.Read
import Idealize.ShloMosaic.Lib.StableHlo.Run

noncomputable section

namespace Cert.KernelIdeal.Found

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregate the region finds is the reference's aggregate of the same arguments. -/
theorem aggregate (c : Dev nD) : (V m c main_v12 : S100000x128.Idx → EReal)
    = Cert.ReferenceIdeal.Read.val_main_v12 (F := Ideal) (m ((c : Thread nD τ).loc main_arg0)) (m ((c : Thread nD τ).loc main_arg1))
        (m ((c : Thread nD τ).loc main_arg2)) (m ((c : Thread nD τ).loc main_arg3)) := by
  dsimp only [Gen.V, Gen.hostOps0]
  after_results
  rfl

/-- The upper half of the weights the region finds is the reference's upper slice. -/
theorem upper (c : Dev nD) : (V m c main_v13 : S128x128.Idx → EReal)
    = Cert.ReferenceIdeal.Read.val_main_v13 (F := Ideal) (m ((c : Thread nD τ).loc main_arg4)) := by
  dsimp only [Gen.V, Gen.hostOps0]
  after_results
  rfl

/-- The lower half of the weights the region finds is the reference's lower slice. -/
theorem lower (c : Dev nD) : (V m c main_v14 : S128x128.Idx → EReal)
    = Cert.ReferenceIdeal.Read.val_main_v15 (F := Ideal) (m ((c : Thread nD τ).loc main_arg4)) := by
  dsimp only [Gen.V, Gen.hostOps0]
  after_results
  rfl

end Cert.KernelIdeal.Found

end
-- ==== Proof.KernelLayer.lean ====
/-
  The kernel program's run, read: its result array ends holding the layer of the reference's own stages of the arguments.

  `Rows.final` has the result array at the layer of the four arrays the region found; `Found` identifies those with the
  aggregate of the arguments, the node features as launched, and the two slices of the weights. Together: after every
  weakly fair execution the result is `Layer.out` of those four functions of the arguments, and the arguments are unchanged.
-/
import proofs.«157850_j67010079752193_1_alg».proof.Proof.Rows
import proofs.«157850_j67010079752193_1_alg».proof.Proof.Found

noncomputable section

namespace Cert.KernelIdeal.AsLayer

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The layer of the aggregate of the arguments, the node features, and the upper and lower halves of the weights. -/
abbrev result (c : Dev nD) : S100000x128.Idx → EReal :=
  Cert.Layer.out
    (Cert.ReferenceIdeal.Read.val_main_v12 (F := Ideal) (m ((c : Thread nD τ).loc main_arg0)) (m ((c : Thread nD τ).loc main_arg1))
      (m ((c : Thread nD τ).loc main_arg2)) (m ((c : Thread nD τ).loc main_arg3)))
    (m ((c : Thread nD τ).loc main_arg0))
    (Cert.ReferenceIdeal.Read.val_main_v13 (F := Ideal) (m ((c : Thread nD τ).loc main_arg4)))
    (Cert.ReferenceIdeal.Read.val_main_v15 (F := Ideal) (m ((c : Thread nD τ).loc main_arg4)))

/-- The layer of what the region found is the layer of those functions of the arguments. -/
theorem whole_eq (c : Dev nD) : Cert.KernelIdeal.Rows.whole m c = result m c := by
  show Cert.Layer.out (V m c main_v12) (V m c main_arg0) (V m c main_v13) (V m c main_v14) = _
  rw [Cert.KernelIdeal.Found.aggregate m c, V_main_arg0 m c, Cert.KernelIdeal.Found.upper m c, Cert.KernelIdeal.Found.lower m c]

/-- Every weakly fair execution of the kernel program ends with the result array at `result` and the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Cert.KernelIdeal.Rows.final m c).trans (whole_eq m c)), (h c).2⟩)
    (Cert.KernelIdeal.Value.run_blocks m ρ)

end Cert.KernelIdeal.AsLayer

end
-- ==== Proof.ReferenceLayer.lean ====
/-
  The reference program's result, read at an index, is the layer of `Layer.lean`.

  The reference computes the aggregate `h` (a gather of rows of `x`, scaled, then summed into rows), slices the weight
  array into its upper and lower 128 rows, forms the two matrix products `h · w₁` and `x · w₂` as host contractions, adds
  them and takes the maximum with zero. At an index `(p, q)` each contraction is the sum over `k` of the left operand at
  `(p, k)` times the right operand at `(k, q)`; the sum of the two and the maximum with `+0.0` are taken elementwise. That is
  `Layer.out` of the aggregate, `x`, and the two slices, with nothing to rearrange.
-/
import proofs.«157850_j67010079752193_1_alg».proof.Proof.Gen.ReferenceIdeal.Read
import proofs.«157850_j67010079752193_1_alg».proof.Proof.Layer

noncomputable section

open scoped BigOperators

namespace Cert.ReferenceIdeal.AsLayer

open Cert.ReferenceIdeal Cert.ReferenceIdeal.Read Idealize.ShloMosaic Idealize.ShloMosaic.ValueIdx

/-- The reference's result array is the layer of its own aggregate, the node features and the two halves of the
    weights. -/
theorem result_eq (x0 : (⟨S100000x128, .f32⟩ : BufTy).Contents (Elt Ideal)) (x1 x2 : (⟨S600000, .i32⟩ : BufTy).Contents (Elt Ideal))
    (x3 : (⟨S600000, .f32⟩ : BufTy).Contents (Elt Ideal)) (x4 : (⟨S256x128, .f32⟩ : BufTy).Contents (Elt Ideal)) :
    val_main_v18 (F := Ideal) x0 x1 x2 x3 x4
      = Cert.Layer.out (val_main_v12 (F := Ideal) x0 x1 x2 x3) x0 (val_main_v13 (F := Ideal) x4) (val_main_v15 (F := Ideal) x4) := by
  funext i
  -- the contraction's operand indices at output index `i` and contraction coordinate `k`: row `i 0`, column `k` on the
  -- left; row `k`, column `i 1` on the right
  have l14 : ∀ k : Fin 128, lidx_main_v14 i k = ix2 (i 0) k := fun k =>
    funext fun a => Fin.ext (by match a with | ⟨0, _⟩ => rfl | ⟨1, _⟩ => rfl)
  have r14 : ∀ k : Fin 128, ridx_main_v14 i k = ix2 k (i 1) := fun k =>
    funext fun a => Fin.ext (by match a with | ⟨0, _⟩ => rfl | ⟨1, _⟩ => rfl)
  have l16 : ∀ k : Fin 128, lidx_main_v16 i k = ix2 (i 0) k := fun k =>
    funext fun a => Fin.ext (by match a with | ⟨0, _⟩ => rfl | ⟨1, _⟩ => rfl)
  have r16 : ∀ k : Fin 128, ridx_main_v16 i k = ix2 k (i 1) := fun k =>
    funext fun a => Fin.ext (by match a with | ⟨0, _⟩ => rfl | ⟨1, _⟩ => rfl)
  rw [val_main_v18_apply, val_main_v17_apply, val_main_v14_apply, val_main_v16_apply, val_main_call0_v0_apply,
    val_main_call0_cst_apply, Cert.Layer.out_apply]
  simp only [l14, r14, l16, r16]
  rfl

end Cert.ReferenceIdeal.AsLayer

end
-- ==== Proof.lean ====
/-
  A graph layer tiled over its rows equals the layer computed whole.

  Both programs first aggregate neighbour features: rows of `x` named by the column indices are gathered, scaled by the
  edge values and summed into the rows named by the row indices, giving `h`. The kernel program then computes
  `max (h · w₁ + x · w₂, 0)` one tile of 5000 rows at a time (twenty tiles) on the matrix unit, with `w₁`, `w₂` the upper and lower 128 rows
  of the weights; the reference computes the same expression on the whole arrays. Over the extended reals rounding to bf16 is
  the identity and a matrix product into a zero accumulator is the plain sum of products, so each output row is the same
  sum of the same terms in both programs, and a row's value depends on that row of `h` and `x` alone. No property of the
  inputs is used: the equality needs no rearrangement of sums.

  The modules: `Layer` states the layer as one function of whole arrays; `Tile` reads the stored tile at an index;
  `Rows` assembles the twenty tiles into the whole result; `Found` identifies the arrays the kernel's region finds with the
  reference's stages; `KernelLayer` and `ReferenceLayer` state each program's result as that one function.
-/
import proofs.«157850_j67010079752193_1_alg».proof.Defs
import proofs.«157850_j67010079752193_1_alg».proof.Proof.Gen.Kernel
import proofs.«157850_j67010079752193_1_alg».proof.Proof.Gen.Kernel.Skeleton
import proofs.«157850_j67010079752193_1_alg».proof.Proof.Gen.Kernel.Launch
import proofs.«157850_j67010079752193_1_alg».proof.Proof.Gen.Kernel.Points
import proofs.«157850_j67010079752193_1_alg».proof.Proof.Gen.Kernel.Frame
import proofs.«157850_j67010079752193_1_alg».proof.Proof.Gen.KernelIdeal
import proofs.«157850_j67010079752193_1_alg».proof.Proof.Gen.KernelIdeal.Skeleton
import proofs.«157850_j67010079752193_1_alg».proof.Proof.Gen.KernelIdeal.Launch
import proofs.«157850_j67010079752193_1_alg».proof.Proof.Gen.KernelIdeal.Points
import proofs.«157850_j67010079752193_1_alg».proof.Proof.Gen.KernelIdeal.Frame
import proofs.«157850_j67010079752193_1_alg».proof.Proof.Gen.ReferenceIdeal
import proofs.«157850_j67010079752193_1_alg».proof.Proof.Gen.Pre_finite_inputs
import proofs.«157850_j67010079752193_1_alg».proof.Proof.Gen.KernelIdeal.Value
import proofs.«157850_j67010079752193_1_alg».proof.Proof.Gen.ReferenceIdeal.Run
import proofs.«157850_j67010079752193_1_alg».proof.Proof.Gen.ReferenceIdeal.Read
import proofs.«157850_j67010079752193_1_alg».proof.Proof.KernelLayer
import proofs.«157850_j67010079752193_1_alg».proof.Proof.ReferenceLayer
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments, both programs end with the result at the layer of the aggregate, the node
    features and the two halves of the weights: the kernel program by `KernelIdeal.AsLayer.run`, the reference by its run
    read as the layer (`ReferenceIdeal.AsLayer.result_eq`) at arguments rewritten to the kernel program's. -/
theorem algebraic : Cert.algebraic_KernelIdeal_ReferenceIdeal := by
  intro m ρ m' ρ' _ hagree
  refine ⟨fun c => Cert.KernelIdeal.AsLayer.result m c, Cert.KernelIdeal.AsLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.AsLayer.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
